-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x512x512 : Shape := ⟨3, ![96, 512, 512]⟩
abbrev S2x8x128 : Shape := ⟨3, ![2, 8, 128]⟩
abbrev S2x512x512 : Shape := ⟨3, ![2, 512, 512]⟩
abbrev S1x8x128 : Shape := ⟨3, ![1, 8, 128]⟩
abbrev S8x128 : Shape := ⟨2, ![8, 128]⟩
abbrev S512x8x128 : Shape := ⟨3, ![512, 8, 128]⟩
abbrev S_ : Shape := ⟨0, ![]⟩

abbrev nBuf : Space → Nat
  | .hbm => 17
  | .vmem => 15
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x512x512, .f32⟩
  | .hbm, ⟨3, _⟩ => ⟨S32x3x512x512, .f32⟩
  | .hbm, ⟨4, _⟩ => ⟨S32x3x512x512, .f32⟩
  | .hbm, ⟨5, _⟩ => ⟨S32x3x512x512, .f32⟩
  | .hbm, ⟨6, _⟩ => ⟨S96x512x512, .f32⟩
  | .hbm, ⟨7, _⟩ => ⟨S96x512x512, .f32⟩
  | .hbm, ⟨8, _⟩ => ⟨S96x512x512, .f32⟩
  | .hbm, ⟨9, _⟩ => ⟨S96x512x512, .f32⟩
  | .hbm, ⟨10, _⟩ => ⟨S96x512x512, .f32⟩
  | .hbm, ⟨11, _⟩ => ⟨S96x512x512, .f32⟩
  | .hbm, ⟨12, _⟩ => ⟨S2x8x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .f32⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | .local _ .vmem, ⟨12, _⟩ => ⟨S1x8x128, .f32⟩
  | .local _ .vmem, ⟨13, _⟩ => ⟨S1x8x128, .f32⟩
  | .local _ .vmem, ⟨14, _⟩ => ⟨S8x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v35 : BitVec 1 := Scalar.cmpi .eq arg1 c23_i32
  let v36 : BitVec 32 := Scalar.extui v35
  let c0_i32_22 : BitVec 32 := 0#32
  let v37 : BitVec 1 := Scalar.cmpi .ne v36 c0_i32_22
  v37

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S32x3x512x512_S96x512x512 : S32x3x512x512.ShapeCasts S96x512x512
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  shapeCasts_S2x512x512_S512x8x128 : S2x512x512.ShapeCasts S512x8x128
  reduces_S512x8x128_S8x128 : S512x8x128.Reduces [0] S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S96x512x512.size a
  hwx0_0 : ∀ i : grid0.Coords, EltTy.bits .f32 = 32 ∨ (Rect.block (s := S96x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S96x512x512.size a
  hwx0_1 : ∀ i : grid0.Coords, EltTy.bits .f32 = 32 ∨ (Rect.block (s := S96x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S96x512x512.size a
  hwx0_2 : ∀ i : grid0.Coords, EltTy.bits .f32 = 32 ∨ (Rect.block (s := S96x512x512) S2x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S96x512x512.size a
  hwx0_3 : ∀ i : grid0.Coords, EltTy.bits .f32 = 32 ∨ (Rect.block (s := S96x512x512) S2x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S96x512x512.size a
  hwx0_4 : ∀ i : grid0.Coords, EltTy.bits .f32 = 32 ∨ (Rect.block (s := S96x512x512) S2x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x512.size a ≤ S96x512x512.size a
  hwx0_5 : ∀ i : grid0.Coords, EltTy.bits .f32 = 32 ∨ (Rect.block (s := S96x512x512) S2x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

abbrev win0_0 : Pipeline.Window sig grid0 :=
  Pipeline.Window.ofSpec (Memref.whole main_v4) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x512x512, .f32⟩
  | .hbm, ⟨3, _⟩ => ⟨S32x3x512x512, .f32⟩
  | .hbm, ⟨4, _⟩ => ⟨S32x3x512x512, .f32⟩
  | .hbm, ⟨5, _⟩ => ⟨S32x3x512x512, .f32⟩
  | .hbm, ⟨6, _⟩ => ⟨S32x3x512x512, .f32⟩
  | .hbm, ⟨7, _⟩ => ⟨S32x3x512x512, .f32⟩
  | .hbm, ⟨8, _⟩ => ⟨S32x3x512x512, .f32⟩
  | .hbm, ⟨9, _⟩ => ⟨S32x3x512x512, .f32⟩
  | .hbm, ⟨10, _⟩ => ⟨S32x3x512x512, .f32⟩
  | .hbm, ⟨11, _⟩ => ⟨S32x3x512x512, .f32⟩
  | .hbm, ⟨12, _⟩ => ⟨S32x3x512x512, .f32⟩
  | .hbm, ⟨13, _⟩ => ⟨S32x3x512x512, .f32⟩
  | .hbm, ⟨14, _⟩ => ⟨S32x3x512x512, .f32⟩
  | .hbm, ⟨15, _⟩ => ⟨S32x3x512x512, .f32⟩
  | .hbm, ⟨16, _⟩ => ⟨S32x3x512x512, .f32⟩
  | .hbm, ⟨17, _⟩ => ⟨S32x3x512x512, .f32⟩
  | .hbm, ⟨18, _⟩ => ⟨S32x3x512x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  reducesTo_S32x3x512x512_S_d0_1_2_3 : S32x3x512x512.ReducesTo [0, 1, 2, 3] S_
  h_S_ : 0 < S_.numel

variable [Facts₀]

class Facts : Prop extends Facts₀ where

variable [Facts]
-- ==== Proof.Pieces.lean ====
/-
  What each control case of the kernel body leaves behind, as pure functions of the six input blocks at the point and of
  the accumulator's contents before it. The body keeps an [8,128] accumulator across the grid points of one group:
  it zeroes it at the group's first point, adds the point's block of partial sums at every point, and copies it to the
  output block at the group's last point.
-/
import proofs.«109068_j67929202753539_2_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- In the middle of a group of grid points the accumulator, holding `xs0`, is left at `xs0` plus this point's
    block of partial sums: the one covering store's payload, whose loads read whole buffers. -/
theorem sout_B (c : Dev nD) (i : grid0.Coords) (a2 : Memref sig .tc .vmem S2x512x512 .f32) (h2 : a2.IsWhole) (a3 : Memref sig .tc .vmem S2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S2x512x512 .f32) (h6 : a6.IsWhole) (a7 : Memref sig .tc .vmem S2x512x512 .f32) (h7 : a7.IsWhole) (a8 : Memref sig .tc .vmem S1x8x128 .f32) (h8 : a8.IsWhole) (a9 : Memref sig .tc .vmem S8x128 .f32) (h9 : a9.IsWhole) (hc0 : ¬cond0_0 i) (hc1 : ¬cond0_1 i) (x0 x1 x2 x3 x4 x5 : Vec F S2x512x512 .f32) (xs0 : Vec F S8x128 .f32) :
    sout0_B_0 c i a2 h2 a3 h3 a4 h4 a5 h5 a6 h6 a7 h7 a8 h8 a9 h9 hc0 hc1 x0 x1 x2 x3 x4 x5 xs0 = k0_pay1 (k0_pay4 x0 x1 x2 x3 x4 x5 xs0) := by
  unfold sout0_B_0
  rw [View.read_writes_eq_canon _ _ _ (scover0_B_0 c i a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz2]
  simp only [View.readAt_eq_ld, h2.read_unread, h3.read_unread, h4.read_unread, h5.read_unread, h6.read_unread, h7.read_unread, h9.read_unread, View.ld_unit_zero (S := S8x128) hz2, View.ld_unit_zero (S := S2x512x512) hz3]

/-- At the first point of a group the accumulator is first zeroed, then read back and left at zero plus the point's
    block of partial sums. -/
theorem sout_A (c : Dev nD) (i : grid0.Coords) (a2 : Memref sig .tc .vmem S2x512x512 .f32) (h2 : a2.IsWhole) (a3 : Memref sig .tc .vmem S2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S2x512x512 .f32) (h6 : a6.IsWhole) (a7 : Memref sig .tc .vmem S2x512x512 .f32) (h7 : a7.IsWhole) (a8 : Memref sig .tc .vmem S1x8x128 .f32) (h8 : a8.IsWhole) (a9 : Memref sig .tc .vmem S8x128 .f32) (h9 : a9.IsWhole) (hc0 : cond0_0 i) (hc1 : ¬cond0_1 i) (x0 x1 x2 x3 x4 x5 : Vec F S2x512x512 .f32) :
    sout0_A_0 c i a2 h2 a3 h3 a4 h4 a5 h5 a6 h6 a7 h7 a8 h8 a9 h9 hc0 hc1 x0 x1 x2 x3 x4 x5 = k0_pay1 (k0_pay4 x0 x1 x2 x3 x4 x5 k0_pay3) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S8x128) hz2]
  simp only [View.readCov_unit_zero (S := S8x128) _ hz2, View.readAt_eq_ld, h2.read_unread, h3.read_unread, h4.read_unread, h5.read_unread, h6.read_unread, h7.read_unread, View.ld_unit_zero (S := S8x128) hz2, View.ld_unit_zero (S := S2x512x512) hz3]

/-- At the last point of a group the accumulator is updated as in the middle, and the output block is the updated
    accumulator read back, under a leading unit axis. -/
theorem sout_C (c : Dev nD) (i : grid0.Coords) (a2 : Memref sig .tc .vmem S2x512x512 .f32) (h2 : a2.IsWhole) (a3 : Memref sig .tc .vmem S2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S2x512x512 .f32) (h6 : a6.IsWhole) (a7 : Memref sig .tc .vmem S2x512x512 .f32) (h7 : a7.IsWhole) (a8 : Memref sig .tc .vmem S1x8x128 .f32) (h8 : a8.IsWhole) (a9 : Memref sig .tc .vmem S8x128 .f32) (h9 : a9.IsWhole) (hc0 : ¬cond0_0 i) (hc1 : cond0_1 i) (x0 x1 x2 x3 x4 x5 : Vec F S2x512x512 .f32) (xs0 : Vec F S8x128 .f32) :
    sout0_C_0 c i a2 h2 a3 h3 a4 h4 a5 h5 a6 h6 a7 h7 a8 h8 a9 h9 hc0 hc1 x0 x1 x2 x3 x4 x5 xs0 = k0_pay1 (k0_pay4 x0 x1 x2 x3 x4 x5 xs0) := by
  unfold sout0_C_0
  rw [View.read_writes_eq_canon _ _ _ (scover0_C_0 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz2]
  simp only [View.readAt_eq_ld, h2.read_unread, h3.read_unread, h4.read_unread, h5.read_unread, h6.read_unread, h7.read_unread, h9.read_unread, View.ld_unit_zero (S := S8x128) hz2, View.ld_unit_zero (S := S2x512x512) hz3]

/-- The output block at such a point: the updated accumulator under a leading unit axis. -/
theorem out_C (c : Dev nD) (i : grid0.Coords) (a2 : Memref sig .tc .vmem S2x512x512 .f32) (h2 : a2.IsWhole) (a3 : Memref sig .tc .vmem S2x512x512 .f32) (h3 : a3.IsWhole) (a4 : Memref sig .tc .vmem S2x512x512 .f32) (h4 : a4.IsWhole) (a5 : Memref sig .tc .vmem S2x512x512 .f32) (h5 : a5.IsWhole) (a6 : Memref sig .tc .vmem S2x512x512 .f32) (h6 : a6.IsWhole) (a7 : Memref sig .tc .vmem S2x512x512 .f32) (h7 : a7.IsWhole) (a8 : Memref sig .tc .vmem S1x8x128 .f32) (h8 : a8.IsWhole) (a9 : Memref sig .tc .vmem S8x128 .f32) (h9 : a9.IsWhole) (hc0 : ¬cond0_0 i) (hc1 : cond0_1 i) (x0 x1 x2 x3 x4 x5 : Vec F S2x512x512 .f32) (xs0 : Vec F S8x128 .f32) :
    out0_C_6 c i a2 h2 a3 h3 a4 h4 a5 h5 a6 h6 a7 h7 a8 h8 a9 h9 hc0 hc1 x0 x1 x2 x3 x4 x5 xs0 = k0_pay2 (k0_pay1 (k0_pay4 x0 x1 x2 x3 x4 x5 xs0)) := by
  unfold out0_C_6
  rw [View.read_writes_eq_canon _ _ _ (cover0_C_6 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz3]
  simp only [View.readCov_unit_zero (S := S8x128) _ hz2, View.readAt_eq_ld, h2.read_unread, h3.read_unread, h4.read_unread, h5.read_unread, h6.read_unread, h7.read_unread, h9.read_unread, View.ld_unit_zero (S := S8x128) hz2, View.ld_unit_zero (S := S2x512x512) hz3]

end Cert.KernelIdeal.Pieces

end
-- ==== Proof.PointSum.lean ====
/-
  One grid point of the kernel, at the ideal values. The body forms, element by element of the six [2,512,512] input
  blocks, the term

      term = (|yt - yth| - |yp - yph|)² + (|ytw - yt| - |ypw - yp|)²,

  re-lays the [2,512,512] block of these terms as [512,8,128] (same row-major order) and sums it over the leading axis
  into an [8,128] block of partial sums, which it adds to the accumulator. Summed over the 8·128 accumulator
  positions, the partial sums are the sum of the term over the whole block: a sum over the fibres of a projection is
  the sum over the total space, and a re-laying is a bijection of index sets.
-/
import proofs.«109068_j67929202753539_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem

namespace Cert.KernelIdeal.PointSum

open Cert.KernelIdeal Cert.KernelIdeal.Gen

/-- The pointwise term of the loss, of one element of each of the six operands (the two arrays, their flips along
    the height and their flips along the width), on the extended reals. -/
def term (yt yp yth yph ytw ypw : Ideal .f32) : Ideal .f32 :=
  FloatOps.addf
    (FloatOps.mulf (FloatOps.subf (FloatOps.absf (FloatOps.subf yt yth)) (FloatOps.absf (FloatOps.subf yp yph)))
      (FloatOps.subf (FloatOps.absf (FloatOps.subf yt yth)) (FloatOps.absf (FloatOps.subf yp yph))))
    (FloatOps.mulf (FloatOps.subf (FloatOps.absf (FloatOps.subf ytw yt)) (FloatOps.absf (FloatOps.subf ypw yp)))
      (FloatOps.subf (FloatOps.absf (FloatOps.subf ytw yt)) (FloatOps.absf (FloatOps.subf ypw yp))))

/-- The block of terms of one grid point. -/
def terms (x0 x1 x2 x3 x4 x5 : Vec Ideal S2x512x512 .f32) : Vec Ideal S2x512x512 .f32 :=
  fun y => term (x0 y) (x1 y) (x2 y) (x3 y) (x4 y) (x5 y)

/-- The point's [8,128] block of partial sums: the terms re-laid as [512,8,128] and summed over the leading axis. -/
def part (x0 x1 x2 x3 x4 x5 : Vec Ideal S2x512x512 .f32) : FVec Ideal S8x128 .f32 :=
  multiReduction (F := Ideal) .add [0] S8x128 (shapeCast S512x8x128 (terms x0 x1 x2 x3 x4 x5) shapeCasts_S2x512x512_S512x8x128)
    0x00000000#32 reduces_S512x8x128_S8x128 (.inl rfl) rfl

/-- What the body stores into the accumulator: its contents before, plus the point's partial sums. -/
theorem pay_apply (x0 x1 x2 x3 x4 x5 : Vec Ideal S2x512x512 .f32) (acc : Vec Ideal S8x128 .f32) (i : S8x128.Idx) :
    k0_pay1 (k0_pay4 x0 x1 x2 x3 x4 x5 acc) i = acc i + part x0 x1 x2 x3 x4 x5 i := by
  unfold k0_pay1 k0_pay4
  simp only [shapeCast_self]
  rfl

/-- The value the accumulator is reset to is zero everywhere. -/
theorem zero_apply (i : S8x128.Idx) : (k0_pay3 (F := Ideal)) i = 0 := by
  unfold k0_pay3
  simp only [shapeCast_self]
  exact Ideal.ofBits_zero_f32

/-- The output block is the accumulator under a leading unit axis: the same elements in the same order. -/
theorem sum_out (v : Vec Ideal S8x128 .f32) : ∑ q : S1x8x128.Idx, k0_pay2 v q = ∑ i : S8x128.Idx, v i := by
  unfold k0_pay2 shapeCast
  exact Equiv.sum_comp (Shape.reshapeEquiv _) v

/-- Over the accumulator's positions the partial sums total the sum of the terms over the block. -/
theorem sum_part (x0 x1 x2 x3 x4 x5 : Vec Ideal S2x512x512 .f32) :
    ∑ i : S8x128.Idx, part x0 x1 x2 x3 x4 x5 i = ∑ y : S2x512x512.Idx, terms x0 x1 x2 x3 x4 x5 y := by
  unfold part
  show ∑ i : S8x128.Idx, Ideal.reduceAdd reduces_S512x8x128_S8x128 _ i = _
  unfold Ideal.reduceAdd
  rw [Finset.sum_fiberwise]
  unfold shapeCast
  exact Equiv.sum_comp (Shape.reshapeEquiv _) (terms x0 x1 x2 x3 x4 x5)

end Cert.KernelIdeal.PointSum

end
-- ==== Proof.Accum.lean ====
/-
  The accumulator across the grid, at the ideal values. The 48 grid points fall into two groups of 24 consecutive
  points; within a group the accumulator is reset at the first point and each point adds its block of partial sums,
  so after the point at offset r of its group it holds, position by position, zero plus the partial sums of the
  group's points up to offset r. At a group's last point the output block is that accumulator under a leading unit axis.
-/
import proofs.«109068_j67929202753539_2_alg».proof.Proof.Gen.KernelIdeal.Frame
import proofs.«109068_j67929202753539_2_alg».proof.Proof.Pieces
import proofs.«109068_j67929202753539_2_alg».proof.Proof.PointSum
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable (m : (ℓ : Loc nD τ sig) → Buf (Elt Ideal) ℓ) (c : Dev nD)

/-- The six input blocks of grid point `n`. -/
def b0 (n : ℕ) (h : n < cfg0.N) : Vec Ideal S2x512x512 .f32 := iblk m c 0 ⟨n, h⟩
def b1 (n : ℕ) (h : n < cfg0.N) : Vec Ideal S2x512x512 .f32 := iblk m c 1 ⟨n, h⟩
def b2 (n : ℕ) (h : n < cfg0.N) : Vec Ideal S2x512x512 .f32 := iblk m c 2 ⟨n, h⟩
def b3 (n : ℕ) (h : n < cfg0.N) : Vec Ideal S2x512x512 .f32 := iblk m c 3 ⟨n, h⟩
def b4 (n : ℕ) (h : n < cfg0.N) : Vec Ideal S2x512x512 .f32 := iblk m c 4 ⟨n, h⟩
def b5 (n : ℕ) (h : n < cfg0.N) : Vec Ideal S2x512x512 .f32 := iblk m c 5 ⟨n, h⟩

/-- The accumulator's contents after point `n`. -/
def scr (n : ℕ) (h : n < cfg0.N) : Vec Ideal S8x128 .f32 := (outsAt0 m c n h).2

/-- What a group's first point leaves: the zero block plus the point's partial sums. -/
def rst (n : ℕ) (h : n < cfg0.N) : Vec Ideal S8x128 .f32 :=
  k0_pay1 (k0_pay4 (b0 m c n h) (b1 m c n h) (b2 m c n h) (b3 m c n h) (b4 m c n h) (b5 m c n h) (k0_pay3 (F := Ideal)))

/-- What a later point leaves over the contents `acc` before it. -/
def stp (n : ℕ) (h : n < cfg0.N) (acc : Vec Ideal S8x128 .f32) : Vec Ideal S8x128 .f32 :=
  k0_pay1 (k0_pay4 (b0 m c n h) (b1 m c n h) (b2 m c n h) (b3 m c n h) (b4 m c n h) (b5 m c n h) acc)

/-- Point `n`'s block of partial sums (zero past the grid, where it is never used). -/
def addend (n : ℕ) : S8x128.Idx → Ideal .f32 := fun i =>
  if h : n < cfg0.N then PointSum.part (b0 m c n h) (b1 m c n h) (b2 m c n h) (b3 m c n h) (b4 m c n h) (b5 m c n h) i else 0

theorem scr_reset (n : ℕ) (h : n < cfg0.N) (h0 : n % 24 = 0) : scr m c n h = rst m c n h := by
  have h1 : ¬ n % 24 = 23 := by omega
  unfold scr rst
  rw [outsAt0_A m c ⟨n, h⟩ h0 h1]
  exact Pieces.sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩)

theorem scr_step (n : ℕ) (h : n + 1 < cfg0.N) (hne : ¬ (n + 1) % 24 = 0) :
    scr m c (n + 1) h = stp m c (n + 1) h (scr m c n (Nat.lt_of_succ_lt h)) := by
  show (outsAt0 m c (n + 1) h).2 = stp m c (n + 1) h (scr m c n (Nat.lt_of_succ_lt h))
  by_cases h1 : (n + 1) % 24 = 23
  · rw [outsAt0_C m c ⟨n + 1, h⟩ hne h1]
    exact Pieces.sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => hne ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c ((⟨n + 1, h⟩ : Fin cfg0.N).val - 1) (Nat.lt_of_le_of_lt (Nat.sub_le _ _) (⟨n + 1, h⟩ : Fin cfg0.N).isLt)).2
  · rw [outsAt0_B m c ⟨n + 1, h⟩ hne h1]
    exact Pieces.sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => hne ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c ((⟨n + 1, h⟩ : Fin cfg0.N).val - 1) (Nat.lt_of_le_of_lt (Nat.sub_le _ _) (⟨n + 1, h⟩ : Fin cfg0.N).isLt)).2

/-- At a group's last point the output's staging block is the accumulator under a leading unit axis. -/
theorem out_last (n : ℕ) (h : n < cfg0.N) (h1 : n % 24 = 23) : (outsAt0 m c n h).1 = k0_pay2 (F := Ideal) (scr m c n h) := by
  have h0 : ¬ n % 24 = 0 := by omega
  unfold scr
  rw [outsAt0_C m c ⟨n, h⟩ h0 h1]
  dsimp only
  refine (Pieces.out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (iblk m c 4 ⟨n, h⟩) (iblk m c 5 ⟨n, h⟩) (outsAt0 m c ((⟨n, h⟩ : Fin cfg0.N).val - 1) (Nat.lt_of_le_of_lt (Nat.sub_le _ _) (⟨n, h⟩ : Fin cfg0.N).isLt)).2).trans ?_
  exact congrArg (k0_pay2 (F := Ideal)) (Pieces.sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (iblk m c 4 ⟨n, h⟩) (iblk m c 5 ⟨n, h⟩) (outsAt0 m c ((⟨n, h⟩ : Fin cfg0.N).val - 1) (Nat.lt_of_le_of_lt (Nat.sub_le _ _) (⟨n, h⟩ : Fin cfg0.N).isLt)).2).symm

theorem rst_apply (n : ℕ) (h : n < cfg0.N) (i : S8x128.Idx) : rst m c n h i = 0 + addend m c n i := by
  unfold rst addend
  rw [dif_pos h]
  exact (PointSum.pay_apply (b0 m c n h) (b1 m c n h) (b2 m c n h) (b3 m c n h) (b4 m c n h) (b5 m c n h) (k0_pay3 (F := Ideal)) i).trans (congrArg (· + _) (PointSum.zero_apply i))

theorem stp_apply (n : ℕ) (h : n < cfg0.N) (acc : Vec Ideal S8x128 .f32) (i : S8x128.Idx) :
    stp m c n h acc i = acc i + addend m c n i := by
  unfold stp addend
  rw [dif_pos h]
  exact PointSum.pay_apply (b0 m c n h) (b1 m c n h) (b2 m c n h) (b3 m c n h) (b4 m c n h) (b5 m c n h) acc i

/-- THE ACCUMULATOR IN CLOSED FORM: after point `t`, zero plus the partial sums of the points of `t`'s group up to `t`. -/
theorem scr_apply (t : ℕ) (ht : t < cfg0.N) (i : S8x128.Idx) :
    scr m c t ht i = 0 + ∑ s ∈ Finset.range (t % 24 + 1), addend m c (24 * (t / 24) + s) i := by
  have h' : 24 * (t / 24) + t % 24 < cfg0.N := by rw [Nat.div_add_mod]; exact ht
  rw [Pipeline.eq_accAt_of_mod (scr m c) 24 (rst m c) (stp m c) (scr_reset m c) (scr_step m c) (by norm_num) t ht h']
  exact Pipeline.accAt_add_apply (rst m c) (stp m c) (fun _ => 0) (addend m c) (24 * (t / 24)) 23
    (fun h i => rst_apply m c _ h i) (fun n h acc i _ _ => stp_apply m c n h acc i) (t % 24) (by omega) h' i

end Cert.KernelIdeal.Accum

end
-- ==== Proof.LibSums.lean ====
/-
  Sums over rank-3 index sets, by coordinates. A rank-3 index set is the product of its three coordinate ranges, so a
  sum over it is a triple sum; it is also the product of its leading coordinate with the rank-2 index set of the other
  two. A leading axis of extent T·B is T consecutive blocks of B rows, so a sum over a [T·B, R, C] array is the sum
  over the T blocks of the sums over each [B, R, C] block. All in any additive commutative monoid, generic in the extents.
-/
import Idealize.ShloMosaic.Lib.ValueIdx
import Mathlib.Algebra.BigOperators.Fin
import Mathlib.Logic.Equiv.Fin.Basic

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set is the sum over the leading coordinate of the sums over the rank-2 index set of the
    other two. -/
theorem sum_idx3_lead {M : Type*} [AddCommMonoid M] {n0 n1 n2 : Nat} (f : (⟨3, ![n0, n1, n2]⟩ : Shape).Idx → M) :
    ∑ i, f i = ∑ a : Fin n0, ∑ j : (⟨2, ![n1, n2]⟩ : Shape).Idx, f (ix3 a (j 0) (j 1)) := by
  rw [sum_idx3]
  refine Finset.sum_congr rfl fun a _ => ?_
  rw [sum_idx2]
  rfl

/-- A sum over `Fin (T * B)` is the sum over `T` blocks of the sums over the `B` offsets inside each block. -/
theorem sum_fin_mul {M : Type*} [AddCommMonoid M] {T B : Nat} (h : Fin (T * B) → M) :
    ∑ x, h x = ∑ t : Fin T, ∑ y : Fin B,
      h ⟨t.val * B + y.val, by
        have ht := t.isLt; have hy := y.isLt
        calc t.val * B + y.val < t.val * B + B := by omega
          _ = (t.val + 1) * B := by ring
          _ ≤ T * B := Nat.mul_le_mul_right B ht⟩ := by
  rw [← Equiv.sum_comp finProdFinEquiv h, Fintype.sum_prod_type]
  refine Finset.sum_congr rfl fun t _ => Finset.sum_congr rfl fun y _ => congrArg h (Fin.ext ?_)
  show y.val + B * t.val = t.val * B + y.val
  rw [Nat.mul_comm, Nat.add_comm]

/-- Row `y` of block `t`, as an index of the whole [T·B, R, C] array. -/
def blockIdx {T B R C : Nat} (t : Fin T) (y : (⟨3, ![B, R, C]⟩ : Shape).Idx) : (⟨3, ![T * B, R, C]⟩ : Shape).Idx :=
  ix3 ⟨t.val * B + (y 0).val, by
    have ht := t.isLt; have hy : (y 0).val < B := (y 0).isLt
    calc t.val * B + (y 0).val < t.val * B + B := by omega
      _ = (t.val + 1) * B := by ring
      _ ≤ T * B := Nat.mul_le_mul_right B ht⟩ (y 1) (y 2)

/-- A sum over a [T·B, R, C] array is the sum over its T blocks of `B` rows of the sums over each block. -/
theorem sum_blocks {M : Type*} [AddCommMonoid M] {T B R C : Nat} (f : (⟨3, ![T * B, R, C]⟩ : Shape).Idx → M) :
    ∑ z, f z = ∑ t : Fin T, ∑ y : (⟨3, ![B, R, C]⟩ : Shape).Idx, f (blockIdx t y) := by
  rw [sum_idx3, sum_fin_mul]
  refine Finset.sum_congr rfl fun t _ => ?_
  rw [sum_idx3]
  rfl

end Cert.LibSums

end
-- ==== Proof.Final.lean ====
/-
  The kernel's [2,8,128] output array after the run. Row g of it is written back once, at the last point of group g,
  with the accumulator under a leading unit axis: position (g, s, l) ends at zero plus the partial sums, at (s, l), of
  the 24 points of group g. The two write-backs cover the array, so this describes every element; summed over the
  whole array it is the sum, over all 48 points, of each point's partial sums totalled over the accumulator.
-/
import proofs.«109068_j67929202753539_2_alg».proof.Proof.Accum
import proofs.«109068_j67929202753539_2_alg».proof.Proof.LibSums
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (c : Dev nD)

/-- The accumulator under a leading unit axis, read at an index: the same row-major position. -/
theorem out_apply (v : Vec Ideal S8x128 .f32) (y : S1x8x128.Idx) :
    k0_pay2 (F := Ideal) v y = v (ix2 (y 1) (y 2)) := by
  unfold k0_pay2
  refine shapeCast_apply v _ y (ix2 (y 1) (y 2)) ?_
  rw [Shape.rowMajor_val_two, Shape.rowMajor_val_three]
  show (y 1).val * 128 + (y 2).val = ((y 0).val * 8 + (y 1).val) * 128 + (y 2).val
  have h0 : (y 0).val < 1 := (y 0).isLt
  omega

/-- Group `g`'s total block: zero plus the partial sums of its 24 points. -/
def groupSum (g : ℕ) (i : S8x128.Idx) : Ideal .f32 :=
  0 + ∑ s ∈ Finset.range 24, Accum.addend m c (24 * g + s) i

/-- What the output array ends holding. -/
def G : S2x8x128.Idx → Ideal .f32 :=
  fun q => groupSum m c (q 0).val (ix2 (q 1) (q 2))

/-- The output window's index map, decided over the grid: row `t / 24`, the block whole on the other two axes. -/
theorem idx6 : ∀ t : Fin cfg0.N, win0_6.index t (0 : Fin 3) = t.val / 24 ∧ win0_6.index t (1 : Fin 3) = 0
    ∧ win0_6.index t (2 : Fin 3) = 0 :=
  (by decide +kernel : ∀ t : Fin grid0.N, _)

/-- WHAT A WRITE-BACK WRITES is its block of `G`. -/
theorem flushed_eq (t : Fin cfg0.N) (hf : (cfg0.win 6).flush t = true) :
    (dats m 0 c).flushed 6 t = ((cfg0.win 6).blk t).view.read (Elt Ideal) (G m c) := by
  have h23 : t.val % 24 = 23 := (flush0_6 t).mp hf
  obtain ⟨e0, e1, e2⟩ := idx6 t
  show (cfg0.win 6).cut (grid0.coords t) ((dats m 0 c).after 6 t) = _
  rw [after0_6, Accum.out_last m c t.val t.isLt h23]
  funext y
  rw [View.read_apply]
  show k0_pay2 (F := Ideal) (Accum.scr m c t.val t.isLt) y = G m c (((cfg0.win 6).blk t).view.emb y)
  rw [out_apply, Accum.scr_apply]
  have h0 : (y 0).val < 1 := (y 0).isLt
  have ha : (((cfg0.win 6).blk t).view.emb y 0).val = t.val / 24 := by
    show win0_6.index t (0 : Fin 3) * 1 + 1 * (y 0).val = _
    omega
  have hb : (ix2 (((cfg0.win 6).blk t).view.emb y 1) (((cfg0.win 6).blk t).view.emb y 2) : S8x128.Idx) = ix2 (y 1) (y 2) := by
    funext a
    apply Fin.ext
    match a with
    | ⟨0, _⟩ => show win0_6.index t (1 : Fin 3) * 8 + 1 * (y 1).val = (y 1).val; omega
    | ⟨1, _⟩ => show win0_6.index t (2 : Fin 3) * 128 + 1 * (y 2).val = (y 2).val; omega
  unfold G groupSum
  rw [ha, hb, h23]
  rfl

/-- An index of the array is in point `t`'s block iff each coordinate is in the block's range on its axis. -/
theorem mem_blk (t : Fin cfg0.N) (i : S2x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v10).slice (win0_6.rect t)).set ↔ _
  rw [View.set_slice_whole, Rect.mem_set_unit]
  exact Iff.rfl

/-- Every index of the array is in the block some write-back writes: row `g` in the one at point `24 g + 23`. -/
theorem cover (i : S2x8x128.Idx) :
    ∃ t : Fin cfg0.N, (cfg0.win 6).flush t = true ∧ i ∈ ((cfg0.win 6).blk t).view.set := by
  have hN : cfg0.N = 48 := N_0
  have hi0 : (i 0).val < 2 := (i 0).isLt
  have hi1 : (i 1).val < 8 := (i 1).isLt
  have hi2 : (i 2).val < 128 := (i 2).isLt
  have ht : 24 * (i 0).val + 23 < cfg0.N := by omega
  obtain ⟨e0, e1, e2⟩ := idx6 ⟨24 * (i 0).val + 23, ht⟩
  have e0' : win0_6.index ⟨24 * (i 0).val + 23, ht⟩ (0 : Fin 3) = (24 * (i 0).val + 23) / 24 := e0
  refine ⟨⟨24 * (i 0).val + 23, ht⟩, (flush0_6 _).mpr (by show (24 * (i 0).val + 23) % 24 = 23; omega), ?_⟩
  rw [mem_blk]
  intro a
  match a with
  | ⟨0, _⟩ => show win0_6.index ⟨24 * (i 0).val + 23, ht⟩ (0 : Fin 3) * 1 ≤ (i 0).val ∧ (i 0).val < win0_6.index ⟨24 * (i 0).val + 23, ht⟩ (0 : Fin 3) * 1 + 1; omega
  | ⟨1, _⟩ => show win0_6.index ⟨24 * (i 0).val + 23, ht⟩ (1 : Fin 3) * 8 ≤ (i 1).val ∧ (i 1).val < win0_6.index ⟨24 * (i 0).val + 23, ht⟩ (1 : Fin 3) * 8 + 8; omega
  | ⟨2, _⟩ => show win0_6.index ⟨24 * (i 0).val + 23, ht⟩ (2 : Fin 3) * 128 ≤ (i 2).val ∧ (i 2).val < win0_6.index ⟨24 * (i 0).val + 23, ht⟩ (2 : Fin 3) * 128 + 128; omega

/-- THE OUTPUT ARRAY after the run. -/
theorem final : (dats m 0 c).arrAt 6 cfg0.N = G m c :=
  (dats m 0 c).arrAt_eq_of_cover 6 (G m c) (flushed_eq m c) (cover)

/-- Its total: the sum over the 48 points of each point's partial sums totalled over the accumulator's positions. -/
theorem sum_G : ∑ q : S2x8x128.Idx, G m c q
    = ∑ n ∈ Finset.range 48, ∑ i : S8x128.Idx, Accum.addend m c n i := by
  rw [LibSums.sum_idx3_lead]
  have e : ∀ g : Fin 2, ∑ j : S8x128.Idx, G m c (ix3 g (j 0) (j 1))
      = ∑ s ∈ Finset.range 24, ∑ i : S8x128.Idx, Accum.addend m c (24 * g.val + s) i := fun g => by
    rw [Finset.sum_comm]
    refine Finset.sum_congr rfl fun j _ => ?_
    refine (congrArg (groupSum m c g.val) (eq_ix2 j).symm).trans ?_
    unfold groupSum
    rw [zero_add]
  rw [Fin.sum_univ_two, e 0, e 1]
  simp only [Fin.val_zero, Fin.val_one, Nat.mul_zero, Nat.zero_add, Nat.mul_one]
  exact (Finset.sum_range_add (fun n => ∑ i : S8x128.Idx, Accum.addend m c n i) 24 24).symm

end Cert.KernelIdeal.Final

end
-- ==== Proof.Blocks.lean ====
/-
  The input side of the kernel. Before the region the host reverses each of the two [32,3,512,512] arrays along its
  height and along its width and re-lays all six arrays as [96,512,512] (same row-major order); at grid point t each
  of the six input windows stages rows 2t, 2t+1 of its array. So the six blocks of a point, read at a block index,
  are the six arrays at the same index of the whole array, and the sum over the 48 points of the sums of the pointwise
  term over each point's blocks is the sum of the term over the whole [96,512,512] arrays: over the original
  [32,3,512,512] arrays, the term of the two arrays and their four reversals at one and the same index.
-/
import proofs.«109068_j67929202753539_2_alg».proof.Proof.Accum
import proofs.«109068_j67929202753539_2_alg».proof.Proof.LibSums
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (c : Dev nD)

/-- The input windows' index maps, decided over the grid: rows `2t, 2t+1`, whole on the other two axes. -/
theorem idxIn : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Window 0's block at a point, read at a block index, is its array at that row of the point's pair of rows. -/
theorem b0_apply (n : ℕ) (h : n < cfg0.N) (y : S2x512x512.Idx) :
    Accum.b0 m c n h y = V m c main_v4 (LibSums.blockIdx (T := 48) (B := 2) (R := 512) (C := 512) ⟨n, lt_of_lt_of_eq h N_0⟩ y) := by
  obtain ⟨e0a, e0b, e0c, e1a, e1b, e1c, e2a, e2b, e2c, e3a, e3b, e3c, e4a, e4b, e4c, e5a, e5b, e5c⟩ := idxIn ⟨n, h⟩
  unfold Accum.b0 iblk
  rw [View.read_apply]
  show V m c main_v4 _ = V m c main_v4 _
  congr 1
  funext a
  apply Fin.ext
  match a with
  | ⟨0, _⟩ => show win0_0.index ⟨n, h⟩ (0 : Fin 3) * 2 + 1 * (y 0).val = n * 2 + (y 0).val; rw [e0a]; show n * 2 + 1 * (y 0).val = n * 2 + (y 0).val; omega
  | ⟨1, _⟩ => show win0_0.index ⟨n, h⟩ (1 : Fin 3) * 512 + 1 * (y 1).val = (y 1).val; rw [e0b]; omega
  | ⟨2, _⟩ => show win0_0.index ⟨n, h⟩ (2 : Fin 3) * 512 + 1 * (y 2).val = (y 2).val; rw [e0c]; omega

/-- Window 1's block at a point, read at a block index, is its array at that row of the point's pair of rows. -/
theorem b1_apply (n : ℕ) (h : n < cfg0.N) (y : S2x512x512.Idx) :
    Accum.b1 m c n h y = V m c main_v5 (LibSums.blockIdx (T := 48) (B := 2) (R := 512) (C := 512) ⟨n, lt_of_lt_of_eq h N_0⟩ y) := by
  obtain ⟨e0a, e0b, e0c, e1a, e1b, e1c, e2a, e2b, e2c, e3a, e3b, e3c, e4a, e4b, e4c, e5a, e5b, e5c⟩ := idxIn ⟨n, h⟩
  unfold Accum.b1 iblk
  rw [View.read_apply]
  show V m c main_v5 _ = V m c main_v5 _
  congr 1
  funext a
  apply Fin.ext
  match a with
  | ⟨0, _⟩ => show win0_1.index ⟨n, h⟩ (0 : Fin 3) * 2 + 1 * (y 0).val = n * 2 + (y 0).val; rw [e1a]; show n * 2 + 1 * (y 0).val = n * 2 + (y 0).val; omega
  | ⟨1, _⟩ => show win0_1.index ⟨n, h⟩ (1 : Fin 3) * 512 + 1 * (y 1).val = (y 1).val; rw [e1b]; omega
  | ⟨2, _⟩ => show win0_1.index ⟨n, h⟩ (2 : Fin 3) * 512 + 1 * (y 2).val = (y 2).val; rw [e1c]; omega

/-- Window 2's block at a point, read at a block index, is its array at that row of the point's pair of rows. -/
theorem b2_apply (n : ℕ) (h : n < cfg0.N) (y : S2x512x512.Idx) :
    Accum.b2 m c n h y = V m c main_v6 (LibSums.blockIdx (T := 48) (B := 2) (R := 512) (C := 512) ⟨n, lt_of_lt_of_eq h N_0⟩ y) := by
  obtain ⟨e0a, e0b, e0c, e1a, e1b, e1c, e2a, e2b, e2c, e3a, e3b, e3c, e4a, e4b, e4c, e5a, e5b, e5c⟩ := idxIn ⟨n, h⟩
  unfold Accum.b2 iblk
  rw [View.read_apply]
  show V m c main_v6 _ = V m c main_v6 _
  congr 1
  funext a
  apply Fin.ext
  match a with
  | ⟨0, _⟩ => show win0_2.index ⟨n, h⟩ (0 : Fin 3) * 2 + 1 * (y 0).val = n * 2 + (y 0).val; rw [e2a]; show n * 2 + 1 * (y 0).val = n * 2 + (y 0).val; omega
  | ⟨1, _⟩ => show win0_2.index ⟨n, h⟩ (1 : Fin 3) * 512 + 1 * (y 1).val = (y 1).val; rw [e2b]; omega
  | ⟨2, _⟩ => show win0_2.index ⟨n, h⟩ (2 : Fin 3) * 512 + 1 * (y 2).val = (y 2).val; rw [e2c]; omega

/-- Window 3's block at a point, read at a block index, is its array at that row of the point's pair of rows. -/
theorem b3_apply (n : ℕ) (h : n < cfg0.N) (y : S2x512x512.Idx) :
    Accum.b3 m c n h y = V m c main_v7 (LibSums.blockIdx (T := 48) (B := 2) (R := 512) (C := 512) ⟨n, lt_of_lt_of_eq h N_0⟩ y) := by
  obtain ⟨e0a, e0b, e0c, e1a, e1b, e1c, e2a, e2b, e2c, e3a, e3b, e3c, e4a, e4b, e4c, e5a, e5b, e5c⟩ := idxIn ⟨n, h⟩
  unfold Accum.b3 iblk
  rw [View.read_apply]
  show V m c main_v7 _ = V m c main_v7 _
  congr 1
  funext a
  apply Fin.ext
  match a with
  | ⟨0, _⟩ => show win0_3.index ⟨n, h⟩ (0 : Fin 3) * 2 + 1 * (y 0).val = n * 2 + (y 0).val; rw [e3a]; show n * 2 + 1 * (y 0).val = n * 2 + (y 0).val; omega
  | ⟨1, _⟩ => show win0_3.index ⟨n, h⟩ (1 : Fin 3) * 512 + 1 * (y 1).val = (y 1).val; rw [e3b]; omega
  | ⟨2, _⟩ => show win0_3.index ⟨n, h⟩ (2 : Fin 3) * 512 + 1 * (y 2).val = (y 2).val; rw [e3c]; omega

/-- Window 4's block at a point, read at a block index, is its array at that row of the point's pair of rows. -/
theorem b4_apply (n : ℕ) (h : n < cfg0.N) (y : S2x512x512.Idx) :
    Accum.b4 m c n h y = V m c main_v8 (LibSums.blockIdx (T := 48) (B := 2) (R := 512) (C := 512) ⟨n, lt_of_lt_of_eq h N_0⟩ y) := by
  obtain ⟨e0a, e0b, e0c, e1a, e1b, e1c, e2a, e2b, e2c, e3a, e3b, e3c, e4a, e4b, e4c, e5a, e5b, e5c⟩ := idxIn ⟨n, h⟩
  unfold Accum.b4 iblk
  rw [View.read_apply]
  show V m c main_v8 _ = V m c main_v8 _
  congr 1
  funext a
  apply Fin.ext
  match a with
  | ⟨0, _⟩ => show win0_4.index ⟨n, h⟩ (0 : Fin 3) * 2 + 1 * (y 0).val = n * 2 + (y 0).val; rw [e4a]; show n * 2 + 1 * (y 0).val = n * 2 + (y 0).val; omega
  | ⟨1, _⟩ => show win0_4.index ⟨n, h⟩ (1 : Fin 3) * 512 + 1 * (y 1).val = (y 1).val; rw [e4b]; omega
  | ⟨2, _⟩ => show win0_4.index ⟨n, h⟩ (2 : Fin 3) * 512 + 1 * (y 2).val = (y 2).val; rw [e4c]; omega

/-- Window 5's block at a point, read at a block index, is its array at that row of the point's pair of rows. -/
theorem b5_apply (n : ℕ) (h : n < cfg0.N) (y : S2x512x512.Idx) :
    Accum.b5 m c n h y = V m c main_v9 (LibSums.blockIdx (T := 48) (B := 2) (R := 512) (C := 512) ⟨n, lt_of_lt_of_eq h N_0⟩ y) := by
  obtain ⟨e0a, e0b, e0c, e1a, e1b, e1c, e2a, e2b, e2c, e3a, e3b, e3c, e4a, e4b, e4c, e5a, e5b, e5c⟩ := idxIn ⟨n, h⟩
  unfold Accum.b5 iblk
  rw [View.read_apply]
  show V m c main_v9 _ = V m c main_v9 _
  congr 1
  funext a
  apply Fin.ext
  match a with
  | ⟨0, _⟩ => show win0_5.index ⟨n, h⟩ (0 : Fin 3) * 2 + 1 * (y 0).val = n * 2 + (y 0).val; rw [e5a]; show n * 2 + 1 * (y 0).val = n * 2 + (y 0).val; omega
  | ⟨1, _⟩ => show win0_5.index ⟨n, h⟩ (1 : Fin 3) * 512 + 1 * (y 1).val = (y 1).val; rw [e5b]; omega
  | ⟨2, _⟩ => show win0_5.index ⟨n, h⟩ (2 : Fin 3) * 512 + 1 * (y 2).val = (y 2).val; rw [e5c]; omega

/-! ## The host operations before the region -/

theorem V_v4 : (V m c main_v4 : S96x512x512.Idx → Ideal .f32)
    = shapeCast S96x512x512 (m ((c : Thread nD τ).loc main_arg0)) shapeCasts_S32x3x512x512_S96x512x512 := by
  dsimp only [V, V0]
  simp only [hostOps0, hostOps0_1, hostOps0_2, hostOps0_3, hostOps0_4, List.flatten_cons, List.flatten_nil, List.append_nil, List.cons_append, List.nil_append]
  after_results
  rfl

theorem V_v5 : (V m c main_v5 : S96x512x512.Idx → Ideal .f32)
    = shapeCast S96x512x512 (m ((c : Thread nD τ).loc main_arg1)) shapeCasts_S32x3x512x512_S96x512x512 := by
  dsimp only [V, V0]
  simp only [hostOps0, hostOps0_1, hostOps0_2, hostOps0_3, hostOps0_4, List.flatten_cons, List.flatten_nil, List.append_nil, List.cons_append, List.nil_append]
  after_results
  rfl

theorem V_v6 : (V m c main_v6 : S96x512x512.Idx → Ideal .f32)
    = shapeCast S96x512x512 (Host.reverse [2] (m ((c : Thread nD τ).loc main_arg0))) shapeCasts_S32x3x512x512_S96x512x512 := by
  dsimp only [V, V0]
  simp only [hostOps0, hostOps0_1, hostOps0_2, hostOps0_3, hostOps0_4, List.flatten_cons, List.flatten_nil, List.append_nil, List.cons_append, List.nil_append]
  after_results
  rfl

theorem V_v7 : (V m c main_v7 : S96x512x512.Idx → Ideal .f32)
    = shapeCast S96x512x512 (Host.reverse [2] (m ((c : Thread nD τ).loc main_arg1))) shapeCasts_S32x3x512x512_S96x512x512 := by
  dsimp only [V, V0]
  simp only [hostOps0, hostOps0_1, hostOps0_2, hostOps0_3, hostOps0_4, List.flatten_cons, List.flatten_nil, List.append_nil, List.cons_append, List.nil_append]
  after_results
  rfl

theorem V_v8 : (V m c main_v8 : S96x512x512.Idx → Ideal .f32)
    = shapeCast S96x512x512 (Host.reverse [3] (m ((c : Thread nD τ).loc main_arg0))) shapeCasts_S32x3x512x512_S96x512x512 := by
  dsimp only [V, V0]
  simp only [hostOps0, hostOps0_1, hostOps0_2, hostOps0_3, hostOps0_4, List.flatten_cons, List.flatten_nil, List.append_nil, List.cons_append, List.nil_append]
  after_results
  rfl

theorem V_v9 : (V m c main_v9 : S96x512x512.Idx → Ideal .f32)
    = shapeCast S96x512x512 (Host.reverse [3] (m ((c : Thread nD τ).loc main_arg1))) shapeCasts_S32x3x512x512_S96x512x512 := by
  dsimp only [V, V0]
  simp only [hostOps0, hostOps0_1, hostOps0_2, hostOps0_3, hostOps0_4, List.flatten_cons, List.flatten_nil, List.append_nil, List.cons_append, List.nil_append]
  after_results
  rfl

/-! ## The total -/

/-- The pointwise term of the two original arrays and their four reversals, at one index. -/
def W (a b : S32x3x512x512.Idx → Ideal .f32) (j : S32x3x512x512.Idx) : Ideal .f32 :=
  PointSum.term (a j) (b j) (Host.reverse [2] a j) (Host.reverse [2] b j) (Host.reverse [3] a j) (Host.reverse [3] b j)

/-- The same over the six re-laid arrays the region finds. -/
def T3 (z : S96x512x512.Idx) : Ideal .f32 :=
  PointSum.term (V m c main_v4 z) (V m c main_v5 z) (V m c main_v6 z) (V m c main_v7 z) (V m c main_v8 z) (V m c main_v9 z)

theorem T3_eq (z : S96x512x512.Idx) :
    T3 m c z = W (m ((c : Thread nD τ).loc main_arg0)) (m ((c : Thread nD τ).loc main_arg1))
      (Shape.reshapeEquiv shapeCasts_S32x3x512x512_S96x512x512 z) := by
  unfold T3
  rw [V_v4, V_v5, V_v6, V_v7, V_v8, V_v9]
  rfl

/-- One point's partial sums, totalled over the accumulator, are the sum of the term over the point's rows. -/
theorem addend_sum (t : Fin 48) : ∑ i : S8x128.Idx, Accum.addend m c t.val i
    = ∑ y : S2x512x512.Idx, T3 m c (LibSums.blockIdx (T := 48) (B := 2) (R := 512) (C := 512) t y) := by
  have ht : t.val < cfg0.N := lt_of_lt_of_eq t.isLt N_0.symm
  have e : ∀ i, Accum.addend m c t.val i = PointSum.part (Accum.b0 m c t.val ht) (Accum.b1 m c t.val ht) (Accum.b2 m c t.val ht) (Accum.b3 m c t.val ht) (Accum.b4 m c t.val ht) (Accum.b5 m c t.val ht) i := fun i => by
    unfold Accum.addend; rw [dif_pos ht]
  rw [Finset.sum_congr rfl (fun i _ => e i), PointSum.sum_part]
  refine Finset.sum_congr rfl fun y _ => ?_
  unfold PointSum.terms T3
  rw [b0_apply, b1_apply, b2_apply, b3_apply, b4_apply, b5_apply]

/-- THE TOTAL over all points: the sum of the term over the original arrays. -/
theorem sum_points : ∑ n ∈ Finset.range 48, ∑ i : S8x128.Idx, Accum.addend m c n i
    = ∑ j : S32x3x512x512.Idx, W (m ((c : Thread nD τ).loc main_arg0)) (m ((c : Thread nD τ).loc main_arg1)) j := by
  rw [Finset.sum_range (fun n => ∑ i : S8x128.Idx, Accum.addend m c n i)]
  rw [Finset.sum_congr rfl (fun t _ => addend_sum m c t)]
  rw [← LibSums.sum_blocks (T := 48) (B := 2) (R := 512) (C := 512) (fun z => T3 m c z)]
  rw [Finset.sum_congr rfl (fun z _ => T3_eq m c z)]
  exact Equiv.sum_comp (Shape.reshapeEquiv shapeCasts_S32x3x512x512_S96x512x512)
    (W (m ((c : Thread nD τ).loc main_arg0)) (m ((c : Thread nD τ).loc main_arg1)))

end Cert.KernelIdeal.Blocks

end
-- ==== Proof.Value.lean ====
/-
  The idealized kernel's result. After the region the host sums the [2,8,128] output array from zero and divides by the
  element count. The array's total is the sum over all 48 grid points of the points' partial sums, which is the sum of
  the pointwise term over the original arrays: exactly what the reference sums, from the same zero, before the same
  division. Only commutativity and associativity of addition on the extended reals are used: no finiteness.
-/
import proofs.«109068_j67929202753539_2_alg».proof.Proof.Final
import proofs.«109068_j67929202753539_2_alg».proof.Proof.Blocks
import proofs.«109068_j67929202753539_2_alg».proof.Proof.Gen.ReferenceIdeal.Read
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg) (c : Dev nD)

/-- THE HOST TAIL: the result is the output array (as the region leaves it) summed from zero and divided by the count. -/
theorem tail : Pipeline.afterTail₀ cfgs (dats m) 0 (V0 m) [hostOps1] c main_v12
    = Host.divf (Host.reduceAdd (F := Ideal) (Final.G m c) (constant S_ .f32 0x00000000#32) reducesTo_S2x8x128_S_d0_1_2 h_S_) (constant S_ .f32 0x4BC00000#32) := by
  unfold Pipeline.afterTail₀
  show StableHlo.after hostOps1 _ (Proc.devRef .tc main_v12) = _
  after_results
  exact congrArg (fun x => Host.divf (Host.reduceAdd (F := Ideal) x (constant S_ .f32 0x00000000#32) reducesTo_S2x8x128_S_d0_1_2 h_S_) (constant S_ .f32 0x4BC00000#32))
    ((Pipeline.withArrays_arr spec0 launch0.win.arr_inj c _ _ 6).trans (Final.final m c))

/-- The host's sum of the whole output array into a scalar: the initial value plus the sum over every index. -/
theorem reduceAll (x : S2x8x128.Idx → Ideal .f32) (v : S_.Idx → Ideal .f32) (i : S_.Idx) :
    Host.reduceAdd (F := Ideal) x v reducesTo_S2x8x128_S_d0_1_2 h_S_ i = v (Shape.Idx.first h_S_) + ∑ q, x q := by
  simp only [Host.reduceAdd, Ideal.hostReduceAdd_def]
  exact Ideal.hostReduceAdd_total reducesTo_S2x8x128_S_d0_1_2 (fun b => b.elim0) x _ i

/-- The pointwise term over the original arrays is the reference's summand. -/
theorem W_eq (a b : S32x3x512x512.Idx → Ideal .f32) (j : S32x3x512x512.Idx) :
    Blocks.W a b j = Cert.ReferenceIdeal.Read.val_main_v16 (F := Ideal) a b j := rfl

/-- THE BRIDGE: the kernel's result is the reference's last stage of the same two arrays. -/
theorem result_eq :
    Host.divf (Host.reduceAdd (F := Ideal) (Final.G m c) (constant S_ .f32 0x00000000#32) reducesTo_S2x8x128_S_d0_1_2 h_S_) (constant S_ .f32 0x4BC00000#32)
      = Cert.ReferenceIdeal.Read.val_main_v18 (F := Ideal) (m ((c : Thread nD τ).loc main_arg0)) (m ((c : Thread nD τ).loc main_arg1)) := by
  funext i
  rw [Cert.ReferenceIdeal.Read.val_main_v18_apply, Cert.ReferenceIdeal.Read.val_main_v17_apply]
  show FloatOps.hostDivf (Host.reduceAdd (F := Ideal) (Final.G m c) (constant S_ .f32 0x00000000#32) reducesTo_S2x8x128_S_d0_1_2 h_S_ i) _ = _
  rw [reduceAll, Final.sum_G, Blocks.sum_points]
  rfl

/-- THE RUN, READ: every weakly fair execution of the idealized kernel terminates with its result at the reference's
    last stage of its own two argument arrays, and those unchanged. -/
theorem run : θ_run defs (onTc (τ := τ) (main (F := Ideal))) ⟨m, fun _ => 0, ρ⟩ fun r => ∀ c : Dev nD,
      r.2.mem ((c : Thread nD τ).loc main_v12) = Cert.ReferenceIdeal.Read.val_main_v18 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v12 (Pipeline.mem_restRefs_of main_v12 (by decide) (by decide))).trans ((tail m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.lean ====
/-
  The gradient-difference loss of two [32,3,512,512] arrays a and b: the mean, over all elements, of

      (|a - flipH a| - |b - flipH b|)² + (|flipW a - a| - |flipW b - b|)²,

  where flipH and flipW reverse an array along its height and its width.

  The reference forms the term on the whole arrays, sums it from zero over all four axes and divides by the element
  count. The kernel re-lays the two arrays and their four reversals as [96,512,512], walks them two rows at a time
  over a 2 × 24 grid, and at each point adds, into an [8,128] accumulator, the point's block of terms re-laid as
  [512,8,128] and summed over its leading axis; the accumulator is zeroed at the first point of each group of 24 and
  copied to row g of a [2,8,128] output at the last; the host then sums that output from zero and divides by the same count.

  On the extended reals both are (0 + the sum of the term over all elements) divided by the count: the kernel's
  grouping of the sum — by output position, then by point of the group, then by leading row of the re-laid block — is
  a regrouping of one finite sum along bijections of index sets (re-layings keep row-major order; the blocks of the
  points tile the arrays; the fibres of a projection partition its domain), which needs only that addition is
  commutative and associative. No finiteness of the inputs is used.

  Proof/Pieces.lean      what each control case of the body leaves in the accumulator and the output block
  Proof/PointSum.lean    one point: the stored value at a position, and the partial sums' total
  Proof/Accum.lean       the accumulator across the grid, in closed form
  Proof/Final.lean       the output array after the run, and its total
  Proof/LibSums.lean     sums over rank-3 index sets by coordinates and by blocks of rows
  Proof/Blocks.lean      the input blocks as rows of the re-laid arrays; the total over all points
  Proof/Value.lean       the host tail, the bridge to the reference's last stage, the run read back
-/
import proofs.«109068_j67929202753539_2_alg».proof.Defs
import proofs.«109068_j67929202753539_2_alg».proof.Proof.Gen.Kernel
import proofs.«109068_j67929202753539_2_alg».proof.Proof.Gen.Kernel.Skeleton
import proofs.«109068_j67929202753539_2_alg».proof.Proof.Gen.Kernel.Launch
import proofs.«109068_j67929202753539_2_alg».proof.Proof.Gen.Kernel.Points
import proofs.«109068_j67929202753539_2_alg».proof.Proof.Gen.Kernel.Frame
import proofs.«109068_j67929202753539_2_alg».proof.Proof.Gen.KernelIdeal
import proofs.«109068_j67929202753539_2_alg».proof.Proof.Gen.KernelIdeal.Skeleton
import proofs.«109068_j67929202753539_2_alg».proof.Proof.Gen.KernelIdeal.Launch
import proofs.«109068_j67929202753539_2_alg».proof.Proof.Gen.KernelIdeal.Points
import proofs.«109068_j67929202753539_2_alg».proof.Proof.Gen.KernelIdeal.Frame
import proofs.«109068_j67929202753539_2_alg».proof.Proof.Gen.ReferenceIdeal
import proofs.«109068_j67929202753539_2_alg».proof.Proof.Gen.ReferenceIdeal.Run
import proofs.«109068_j67929202753539_2_alg».proof.Proof.Gen.ReferenceIdeal.Read
import proofs.«109068_j67929202753539_2_alg».proof.Proof.Gen.Pre_finite_inputs
import proofs.«109068_j67929202753539_2_alg».proof.Proof.Value
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the kernel's result is the reference's last stage of the kernel's own two arrays, and the
    reference's is that stage of arrays that agree with them. -/
theorem algebraic : Cert.algebraic_KernelIdeal_ReferenceIdeal := by
  intro m ρ m' ρ' _ hagree
  refine ⟨fun c => Cert.ReferenceIdeal.Read.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
